-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x512 : Shape := ⟨3, ![1, 2048, 512]⟩
abbrev S1x65536x512 : Shape := ⟨3, ![1, 65536, 512]⟩
abbrev S_ : Shape := ⟨0, ![]⟩

class Facts : Prop where
  bcast_S_S1x2048x512 : S_.BroadcastsInDim S1x2048x512 (![] : Fin 0 → Fin S1x2048x512.rank)
  reducesTo_S1x2048x512_S_d0_1_2 : S1x2048x512.ReducesTo [0, 1, 2] S_
  h_S_ : 0 < S_.numel
  bcast_S_S1x65536x512 : S_.BroadcastsInDim S1x65536x512 (![] : Fin 0 → Fin S1x65536x512.rank)
  reducesTo_S1x65536x512_S_d0_1_2 : S1x65536x512.ReducesTo [0, 1, 2] S_

variable [Facts]

def fn {F : FTy → Type} [FloatOps F] (main_arg0 : FVec F S1x2048x512 .f32) (main_arg1 : FVec F S1x65536x512 .f32) : IVec S_ 1 :=
  let main_v0 : FVec F S1x2048x512 .f32 := Host.absf main_arg0
  let main_cst : FVec F S_ .f32 := constant S_ .f32 0x7F800000#32
  let main_v1 : FVec F S1x2048x512 .f32 := broadcastInDim S1x2048x512 ![] bcast_S_S1x2048x512 main_cst
  let main_v2 : IVec S1x2048x512 1 := cmpf .olt main_v0 main_v1
  let main_c : IVec S_ 1 := constantI S_ 1 1#1
  let main_v3 : IVec S_ 1 := (fun x v => Host.reduce IntOp.andi x v reducesTo_S1x2048x512_S_d0_1_2 h_S_) main_v2 main_c
  let main_v4 : FVec F S1x65536x512 .f32 := Host.absf main_arg1
  let main_cst_0 : FVec F S_ .f32 := constant S_ .f32 0x7F800000#32
  let main_v5 : FVec F S1x65536x512 .f32 := broadcastInDim S1x65536x512 ![] bcast_S_S1x65536x512 main_cst_0
  let main_v6 : IVec S1x65536x512 1 := cmpf .olt main_v4 main_v5
  let main_c_1 : IVec S_ 1 := constantI S_ 1 1#1
  let main_v7 : IVec S_ 1 := (fun x v => Host.reduce IntOp.andi x v reducesTo_S1x65536x512_S_d0_1_2 h_S_) main_v6 main_c_1
  let main_v8 : IVec S_ 1 := andi main_v3 main_v7
  main_v8
-- ==== Kernel.lean ====
abbrev S1x2048x512 : Shape := ⟨3, ![1, 2048, 512]⟩
abbrev S1x65536x512 : Shape := ⟨3, ![1, 65536, 512]⟩
abbrev S2048x512 : Shape := ⟨2, ![2048, 512]⟩
abbrev S65536x512 : Shape := ⟨2, ![65536, 512]⟩
abbrev S16x128 : Shape := ⟨2, ![16, 128]⟩
abbrev S1024x512 : Shape := ⟨2, ![1024, 512]⟩
abbrev S8x128 : Shape := ⟨2, ![8, 128]⟩
abbrev S1x2048 : Shape := ⟨2, ![1, 2048]⟩
abbrev S1x512 : Shape := ⟨2, ![1, 512]⟩
abbrev S1024 : Shape := ⟨1, ![1024]⟩
abbrev S1024x1 : Shape := ⟨2, ![1024, 1]⟩
abbrev S1024x2048 : Shape := ⟨2, ![1024, 2048]⟩
abbrev S1 : Shape := ⟨1, ![1]⟩
abbrev S1x1 : Shape := ⟨2, ![1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S1x2048x512, .f32⟩
  | .hbm, ⟨1, _⟩ => ⟨S1x65536x512, .f32⟩
  | .hbm, ⟨2, _⟩ => ⟨S2048x512, .f32⟩
  | .hbm, ⟨3, _⟩ => ⟨S65536x512, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S2048x512, .f32⟩
  | .local _ .vmem, ⟨1, _⟩ => ⟨S1024x512, .f32⟩
  | .local _ .vmem, ⟨2, _⟩ => ⟨S1024x512, .f32⟩
  | .local _ .vmem, ⟨3, _⟩ => ⟨S8x128, .f32⟩
  | .local _ .vmem, ⟨4, _⟩ => ⟨S8x128, .f32⟩
  | .local _ .vmem, ⟨5, _⟩ => ⟨S2048x512, .bf16⟩
  | .local _ .vmem, ⟨6, _⟩ => ⟨S1x2048, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1x2048x512_S2048x512 : S1x2048x512.ShapeCasts S2048x512
  shapeCasts_S1x65536x512_S65536x512 : S1x65536x512.ShapeCasts S65536x512
  inb_S8x128_S8x128_0_0 : ∀ a, (![0, 0] : Fin 2 → Nat) a + S8x128.size a ≤ S8x128.size a
  h_S8x128 : 0 < S8x128.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  packedbf16_S2048x512_S2048x512_0_0 : (Rect.unit (s := S2048x512) ![0, 0] S2048x512.size inb_S2048x512_S2048x512_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x2048 : S1024x1.Broadcasts S1024x2048
  broadcasts_S1x2048_S1024x2048 : S1x2048.Broadcasts S1024x2048
  reduces_S1024x2048_S1024 : S1024x2048.Reduces [1] S1024
  reduces_S1024x1_S1 : S1024x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  dot_S1x512_S2048x512_S1x2048_1_1_0_0_n_n_wf : DotDims.WF S1x512 S2048x512 S1x2048 [1] [1] [0] [0] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x512.size a
  hwx0_0 : ∀ i : grid0.Coords, EltTy.bits .f32 = 32 ∨ (Rect.block (s := S2048x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

def dot_S1x512_S2048x512_S1x2048_1_1_0_0_n_n : DotDims S1x512 S2048x512 S1x2048 where
  lhsContracting := [1]
  rhsContracting := [1]
  lhsNonContracting := [0]
  rhsNonContracting := [0]
  lhsBatch := []
  rhsBatch := []
  wf := dot_S1x512_S2048x512_S1x2048_1_1_0_0_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x2048x512 : Shape := ⟨3, ![1, 2048, 512]⟩
abbrev S1x65536x512 : Shape := ⟨3, ![1, 65536, 512]⟩
abbrev S2048x512 : Shape := ⟨2, ![2048, 512]⟩
abbrev S65536x512 : Shape := ⟨2, ![65536, 512]⟩
abbrev S_ : Shape := ⟨0, ![]⟩
abbrev S2048 : Shape := ⟨1, ![2048]⟩
abbrev S2048x1 : Shape := ⟨2, ![2048, 1]⟩
abbrev S65536 : Shape := ⟨1, ![65536]⟩
abbrev S1x65536 : Shape := ⟨2, ![1, 65536]⟩
abbrev S2048x65536 : Shape := ⟨2, ![2048, 65536]⟩

abbrev nBuf : Space → Nat
  | .hbm => 26
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x65536x512, .f32⟩
  | .hbm, ⟨2, _⟩ => ⟨S2048x512, .f32⟩
  | .hbm, ⟨3, _⟩ => ⟨S65536x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S65536x512, .f32⟩
  | .hbm, ⟨9, _⟩ => ⟨S_, .f32⟩
  | .hbm, ⟨10, _⟩ => ⟨S65536, .f32⟩
  | .hbm, ⟨11, _⟩ => ⟨S1x65536, .f32⟩
  | .hbm, ⟨12, _⟩ => ⟨S2048x65536, .f32⟩
  | .hbm, ⟨13, _⟩ => ⟨S2048x65536, .f32⟩
  | .hbm, ⟨14, _⟩ => ⟨S2048x65536, .f32⟩
  | .hbm, ⟨15, _⟩ => ⟨S2048x65536, .f32⟩
  | .hbm, ⟨16, _⟩ => ⟨S_, .f32⟩
  | .hbm, ⟨17, _⟩ => ⟨S2048x65536, .f32⟩
  | .hbm, ⟨18, _⟩ => ⟨S2048x65536, .f32⟩
  | .hbm, ⟨19, _⟩ => ⟨S2048x65536, .f32⟩
  | .hbm, ⟨20, _⟩ => ⟨S_, .f32⟩
  | .hbm, ⟨21, _⟩ => ⟨S2048x65536, .f32⟩
  | .hbm, ⟨22, _⟩ => ⟨S2048x65536, .f32⟩
  | .hbm, ⟨23, _⟩ => ⟨S2048x65536, .f32⟩
  | .hbm, ⟨24, _⟩ => ⟨S_, .f32⟩
  | .hbm, ⟨25, _⟩ => ⟨S_, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  shapeCasts_S1x2048x512_S2048x512 : S1x2048x512.ShapeCasts S2048x512
  shapeCasts_S1x65536x512_S65536x512 : S1x65536x512.ShapeCasts S65536x512
  reducesTo_S2048x512_S2048_d1 : S2048x512.ReducesTo [1] S2048
  h_S_ : 0 < S_.numel
  bcast_S2048_S2048x1_0 : S2048.BroadcastsInDim S2048x1 (![0] : Fin 1 → Fin S2048x1.rank)
  reducesTo_S65536x512_S65536_d1 : S65536x512.ReducesTo [1] S65536
  bcast_S65536_S1x65536_1 : S65536.BroadcastsInDim S1x65536 (![1] : Fin 1 → Fin S1x65536.rank)
  bcast_S2048x1_S2048x65536_0_1 : S2048x1.BroadcastsInDim S2048x65536 (![0, 1] : Fin 2 → Fin S2048x65536.rank)
  bcast_S1x65536_S2048x65536_0_1 : S1x65536.BroadcastsInDim S2048x65536 (![0, 1] : Fin 2 → Fin S2048x65536.rank)
  bcast_S_S2048x65536 : S_.BroadcastsInDim S2048x65536 (![] : Fin 0 → Fin S2048x65536.rank)
  reducesTo_S2048x65536_S_d0_1 : S2048x65536.ReducesTo [0, 1] S_
  dot_S2048x512_S65536x512_S2048x65536_1_1_0_0_n_n_wf : DotDims.WF S2048x512 S65536x512 S2048x65536 [1] [1] [0] [0] [] []

variable [Facts₀]

def dot_S2048x512_S65536x512_S2048x65536_1_1_0_0_n_n : DotDims S2048x512 S65536x512 S2048x65536 where
  lhsContracting := [1]
  rhsContracting := [1]
  lhsNonContracting := [0]
  rhsNonContracting := [0]
  lhsBatch := []
  rhsBatch := []
  wf := dot_S2048x512_S65536x512_S2048x65536_1_1_0_0_n_n_wf

class Facts : Prop extends Facts₀ where

variable [Facts]
-- ==== Proof.Pieces.lean ====
/-
  What each run of the kernel body leaves in the output block and in the two scratch buffers, as the body's own
  arithmetic applied to what it loaded: every store covers its whole buffer, so the last store's payload is what the
  buffer holds, and a load after a store reads that store's payload.
-/
import proofs.«179320_j50044958933373_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a first tile of a core the reference-points scratch ends holding the payload of its one whole-block store. -/
theorem scratch0_A (c : Dev nD) (i : grid0.Coords) (arg2 : Memref sig .tc .vmem S2048x512 .f32) (harg2 : arg2.IsWhole) (arg3 : Memref sig .tc .vmem S1024x512 .f32) (harg3 : arg3.IsWhole) (arg4 : Memref sig .tc .vmem S8x128 .f32) (harg4 : arg4.IsWhole) (arg5 : Memref sig .tc .vmem S2048x512 .bf16) (harg5 : arg5.IsWhole) (arg6 : Memref sig .tc .vmem S1x2048 .f32) (harg6 : arg6.IsWhole) (hc0 : cond0_0 i) (x0 : Vec F S2048x512 .f32) (x1 : Vec F S1024x512 .f32) :
    sout0_A_0 c i arg2 harg2 arg3 harg3 arg4 harg4 arg5 harg5 arg6 harg6 hc0 x0 x1 = k0_pay3 x0 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_unit_zero (S := S2048x512) hz]
  simp only [View.readAt_eq_ld, harg2.read_unread, View.ld_unit_zero (S := S2048x512) hz]

/-- At a first tile of a core the squared-norm scratch ends holding the payload of its one whole-block store. -/
theorem scratch1_A (c : Dev nD) (i : grid0.Coords) (arg2 : Memref sig .tc .vmem S2048x512 .f32) (harg2 : arg2.IsWhole) (arg3 : Memref sig .tc .vmem S1024x512 .f32) (harg3 : arg3.IsWhole) (arg4 : Memref sig .tc .vmem S8x128 .f32) (harg4 : arg4.IsWhole) (arg5 : Memref sig .tc .vmem S2048x512 .bf16) (harg5 : arg5.IsWhole) (arg6 : Memref sig .tc .vmem S1x2048 .f32) (harg6 : arg6.IsWhole) (hc0 : cond0_0 i) (x0 : Vec F S2048x512 .f32) (x1 : Vec F S1024x512 .f32) :
    sout0_A_1 c i arg2 harg2 arg3 harg3 arg4 harg4 arg5 harg5 arg6 harg6 hc0 x0 x1 = k0_pay4 x0 := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_unit_zero (S := S1x2048) hz]
  simp only [View.readAt_eq_ld, harg2.read_unread, View.ld_unit_zero (S := S2048x512) hz]

/-- At a first tile of a core the output block is first filled with +infinity, both scratch buffers are written from the
    query block, and the running minimum is taken against what was just stored. -/
theorem out_A (c : Dev nD) (i : grid0.Coords) (arg2 : Memref sig .tc .vmem S2048x512 .f32) (harg2 : arg2.IsWhole) (arg3 : Memref sig .tc .vmem S1024x512 .f32) (harg3 : arg3.IsWhole) (arg4 : Memref sig .tc .vmem S8x128 .f32) (harg4 : arg4.IsWhole) (arg5 : Memref sig .tc .vmem S2048x512 .bf16) (harg5 : arg5.IsWhole) (arg6 : Memref sig .tc .vmem S1x2048 .f32) (harg6 : arg6.IsWhole) (hc0 : cond0_0 i) (x0 : Vec F S2048x512 .f32) (x1 : Vec F S1024x512 .f32) :
    out0_A_2 c i arg2 harg2 arg3 harg3 arg4 harg4 arg5 harg5 arg6 harg6 hc0 x0 x1 = k0_pay5 x1 (k0_pay3 x0) (k0_pay4 x0) k0_pay1 := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S8x128) hz, View.readCov_unit_zero (S := S2048x512) _ hz,
    View.readCov_unit_zero (S := S1x2048) _ hz, View.readCov_unit_zero (S := S8x128) _ hz]
  simp only [View.readAt_eq_ld, harg2.read_unread, harg3.read_unread, View.ld_unit_zero (S := S2048x512) hz,
    View.ld_unit_zero (S := S1024x512) hz]

/-- At a later tile the running minimum is taken against the block the tile before left, with the scratch buffers as
    they were left. -/
theorem out_B (c : Dev nD) (i : grid0.Coords) (arg2 : Memref sig .tc .vmem S2048x512 .f32) (harg2 : arg2.IsWhole) (arg3 : Memref sig .tc .vmem S1024x512 .f32) (harg3 : arg3.IsWhole) (arg4 : Memref sig .tc .vmem S8x128 .f32) (harg4 : arg4.IsWhole) (arg5 : Memref sig .tc .vmem S2048x512 .bf16) (harg5 : arg5.IsWhole) (arg6 : Memref sig .tc .vmem S1x2048 .f32) (harg6 : arg6.IsWhole) (hc0 : ¬cond0_0 i) (x0 : Vec F S2048x512 .f32) (x1 : Vec F S1024x512 .f32)
    (xo2 : Vec F S8x128 .f32) (xs0 : Vec F S2048x512 .bf16) (xs1 : Vec F S1x2048 .f32) :
    out0_B_2 c i arg2 harg2 arg3 harg3 arg4 harg4 arg5 harg5 arg6 harg6 hc0 x0 x1 xo2 xs0 xs1 = k0_pay5 x1 xs0 xs1 xo2 := by
  unfold out0_B_2
  rw [View.read_writes_eq_canon _ _ _ (cover0_B_2 c i arg2 harg2 arg3 harg3 arg4 harg4 arg5 harg5 arg6 harg6 hc0 x0 x1 xo2 xs0 xs1)]
  unfold kernelRun0_B
  dsimp only
  sl_unfold_words
  rw [View.canon_unit_zero (S := S8x128) hz]
  simp only [View.readAt_eq_ld, harg3.read_unread, harg4.read_unread, harg5.read_unread, harg6.read_unread,
    View.ld_unit_zero (S := S1024x512) hz, View.ld_unit_zero (S := S2048x512) hz, View.ld_unit_zero (S := S1x2048) hz,
    View.ld_unit_zero (S := S8x128) hz]

end Cert.KernelIdeal.Pieces
end
-- ==== Proof.Blocks.lean ====
/-
  Where each window's block sits in its array. The query window's block is the whole query array at every grid
  point; the stored-rows window's block at grid point `t` is rows 1024·t … 1024·t + 1023; the output window's block
  at `t` is rows 8·(t / 32) … 8·(t / 32) + 7. The two arrays the windows read are the arguments with their leading
  unit axis dropped.
-/
import proofs.«179320_j50044958933373_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The block indices of the three windows, decided once over the 64 grid points. -/
theorem index_q : ∀ t : Fin cfg0.N, win0_0.index t 0 = 0 ∧ win0_0.index t 1 = 0 :=
  (by decide +kernel : ∀ t : Fin grid0.N, win0_0.index t 0 = 0 ∧ win0_0.index t 1 = 0)
theorem index_s : ∀ t : Fin cfg0.N, win0_1.index t 0 = t.val ∧ win0_1.index t 1 = 0 :=
  (by decide +kernel : ∀ t : Fin grid0.N, win0_1.index t 0 = t.val ∧ win0_1.index t 1 = 0)
theorem index_o : ∀ t : Fin cfg0.N, win0_2.index t 0 = t.val / 32 ∧ win0_2.index t 1 = 0 :=
  (by decide +kernel : ∀ t : Fin grid0.N, win0_2.index t 0 = t.val / 32 ∧ win0_2.index t 1 = 0)

/-- The query array and the stored array as the kernel finds them. -/
abbrev qarr (c : Dev nD) : Vec F S2048x512 .f32 := V m c main_v0
abbrev sarr (c : Dev nD) : Vec F S65536x512 .f32 := V m c main_v1

/-- The query window's block is the whole query array, at every grid point. -/
theorem qblock (c : Dev nD) (t : Fin cfg0.N) : (iblk m c 0 t : Vec F S2048x512 .f32) = qarr m c := by
  funext j
  unfold iblk
  rw [View.read_apply]
  show V m c main_v0 _ = V m c main_v0 j
  refine congrArg (V m c main_v0) ?_
  funext a
  apply Fin.ext
  match a with
  | ⟨0, _⟩ => show win0_0.index t 0 * 2048 + 1 * (j 0).val = (j 0).val; rw [(index_q t).1]; omega
  | ⟨1, _⟩ => show win0_0.index t 1 * 512 + 1 * (j 1).val = (j 1).val; rw [(index_q t).2]; omega

/-- Row `r` of the stored-rows block at grid point `t` is row `1024·t + r` of the stored array. -/
theorem sblock (c : Dev nD) (t : Fin cfg0.N) (r : Fin 1024) (k : Fin 512) (R : Fin 65536) (hR : R.val = 1024 * t.val + r.val) :
    (iblk m c 1 t : Vec F S1024x512 .f32) (ix2 r k) = sarr m c (ix2 R k) := by
  unfold iblk
  rw [View.read_apply]
  show V m c main_v1 _ = V m c main_v1 (ix2 R k)
  refine congrArg (V m c main_v1) ?_
  funext a
  apply Fin.ext
  match a with
  | ⟨0, _⟩ => show win0_1.index t 0 * 1024 + 1 * r.val = R.val; rw [(index_s t).1]; omega
  | ⟨1, _⟩ => show win0_1.index t 1 * 512 + 1 * k.val = k.val; rw [(index_s t).2]; omega

/-- The query array is the first argument with its leading unit axis dropped. -/
theorem V_q (c : Dev nD) :
    qarr m c
      = shapeCast S2048x512 (m ((c : Thread nD τ).loc main_arg0)) shapeCasts_S1x2048x512_S2048x512 := by
  show StableHlo.after hostOps0 (fun b => m (c, b)) (Proc.devRef .tc main_v0) = _
  after_results
  rfl

/-- The stored array is the second argument with its leading unit axis dropped. -/
theorem V_s (c : Dev nD) :
    sarr m c
      = shapeCast S65536x512 (m ((c : Thread nD τ).loc main_arg1)) shapeCasts_S1x65536x512_S65536x512 := by
  show StableHlo.after hostOps0 (fun b => m (c, b)) (Proc.devRef .tc main_v1) = _
  after_results
  rfl

end Cert.KernelIdeal.Blocks

end
-- ==== Proof.LibMinReduce.lean ====
/-
  Minimum reductions on the extended reals, by their universal property: a value is below a minimum exactly when it
  is below every element (and below the starting value). Stated for a vector minimum along one axis, for the host's
  minimum of a whole array down to a scalar, and joined by the fact that the square root is monotone, so that the
  square root of a least element is the least of the square roots.
-/
import Idealize.ShloMosaic.PureOps.Ideal
import Idealize.ShloMosaic.PureOps.Ideal.Laws
import Idealize.ShloMosaic.PureOps.Reduce
import Idealize.ShloMosaic.Lib.ValueIdx

noncomputable section

namespace Cert.LibMinReduce

open Idealize.ShloMosaic Idealize.ShloMosaic.ValueIdx

/-- The f32 pattern of +infinity is the top element. -/
theorem ofBits_inf : Ideal.ofBits .f32 0x7F800000#32 = (⊤ : EReal) := by
  simp [Ideal.ofBits, Ideal.ieee]

/-- The f32 pattern of 1.0 is one. -/
theorem ofBits_one : Ideal.ofBits .f32 0x3F800000#32 = (1 : EReal) := by
  simp [Ideal.ofBits, Ideal.ieee, -EReal.coe_mul]; norm_num

/-- The square root of the extended reals (bottom below zero) is monotone. -/
theorem sqrt_mono : Monotone Ideal.sqrt := by
  intro a b hab
  induction a using EReal.rec with
  | bot => exact bot_le
  | top =>
    have hb : b = ⊤ := top_le_iff.mp hab
    subst hb; exact le_rfl
  | coe r =>
    induction b using EReal.rec with
    | bot => exact absurd hab (by simp)
    | top => exact le_top
    | coe s =>
      have hrs : r ≤ s := EReal.coe_le_coe_iff.mp hab
      simp only [Ideal.sqrt_coe]
      split_ifs with h1 h2
      · exact le_rfl
      · exact bot_le
      · exfalso; linarith
      · exact EReal.coe_le_coe_iff.mpr (Real.sqrt_le_sqrt hrs)

/-- If `M` is the greatest lower bound of finitely many nonnegative values `d i` and `R` the greatest lower bound of
    their square roots, then `R` is the square root of `M` (clamped at zero, which changes nothing): the least value is
    attained, and the square root keeps order. -/
theorem sqrt_glb {ι : Type*} [Finite ι] [Nonempty ι] (d : ι → EReal) (hd : ∀ i, 0 ≤ d i) (M R : EReal)
    (hM : ∀ z, z ≤ M ↔ ∀ i, z ≤ d i) (hR : ∀ z, z ≤ R ↔ ∀ i, z ≤ Ideal.sqrt (d i)) :
    Ideal.sqrt (max M 0) = R := by
  have hM0 : 0 ≤ M := (hM 0).mpr hd
  rw [max_eq_left hM0]
  obtain ⟨i0, hi0⟩ := Finite.exists_min d
  have hMi : M = d i0 := le_antisymm ((hM M).mp le_rfl i0) ((hM _).mpr hi0)
  apply le_antisymm
  · exact (hR _).mpr fun i => sqrt_mono ((hM M).mp le_rfl i)
  · rw [hMi]; exact (hR R).mp le_rfl i0

/-- A vector minimum along one axis, from the accumulator's value: below it is below the accumulator and below every
    element of the reduced line. -/
theorem le_multiReduction_min {s t : Shape} {a : Fin s.rank} {φ : FTy} (src : FVec Ideal s φ) (acc : BitVec φ.bits)
    (h : s.Reduces [a] t) (hφ : FKind.Formats φ) (hacc : acc = FKind.minimumf.neutral φ hφ) (j : t.Idx) (z : EReal) :
    z ≤ multiReduction .minimumf [a] t src acc h hφ hacc j
      ↔ z ≤ Ideal.ofBits φ acc ∧ ∀ k : Fin (s.size a), z ≤ src (h.lift j k) := by
  classical
  rw [multiReduction_minimumf_eq_fold, h.fold_filter_drop_single]
  refine (Finset.le_fold_min (s := (Finset.univ : Finset (Fin (s.size a)))) (f := src ∘ h.lift j)
    (b := Ideal.ofBits φ acc) z).trans ?_
  simp only [Finset.mem_univ, true_implies, Function.comp_apply]

/-- Over row `r` of an `[R, W]` array, the index with column `k` inserted is `(r, k)`. -/
theorem lift_row {R W : ℕ} (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- Down the one column of an `[R, 1]` array, the index with row `k` inserted is `(k, 0)`. -/
theorem lift_col {R : ℕ} (h : (⟨2, ![R, 1]⟩ : Shape).Reduces [0] ⟨1, ![1]⟩) (j : (⟨1, ![1]⟩ : Shape).Idx) (k : Fin R) :
    h.lift j k = ix2 k (0 : Fin 1) := by
  funext c
  match c with
  | ⟨0, _⟩ => exact Fin.ext rfl
  | ⟨1, hc⟩ => exact Fin.ext (by
      have hlt : (h.lift j k ⟨1, hc⟩).val < 1 := (h.lift j k ⟨1, hc⟩).isLt
      show (h.lift j k ⟨1, hc⟩).val = 0
      omega)

/-- A row minimum of an `[R, W]` array from +infinity: below it is below every entry of the row. -/
theorem le_rowMin {R W : ℕ} (src : FVec Ideal ⟨2, ![R, W]⟩ .f32) (h : (⟨2, ![R, W]⟩ : Shape).Reduces [1] ⟨1, ![R]⟩)
    (hφ : FKind.Formats .f32) (hacc : (0x7F800000#32 : BitVec 32) = FKind.minimumf.neutral .f32 hφ) (r : Fin R) (z : EReal) :
    z ≤ multiReduction .minimumf [1] ⟨1, ![R]⟩ src 0x7F800000#32 h hφ hacc (ix1 r) ↔ ∀ p : Fin W, z ≤ src (ix2 r p) := by
  refine (le_multiReduction_min src _ h hφ hacc (ix1 r) z).trans ?_
  rw [ofBits_inf]
  constructor
  · intro hh p
    have := hh.2 p
    rwa [lift_row h r p] at this
  · intro hh
    exact ⟨le_top, fun k => by rw [lift_row h r k]; exact hh k⟩

/-- The minimum down the one column of an `[R, 1]` array from +infinity: below it is below every entry. -/
theorem le_colMin {R : ℕ} (src : FVec Ideal ⟨2, ![R, 1]⟩ .f32) (h : (⟨2, ![R, 1]⟩ : Shape).Reduces [0] ⟨1, ![1]⟩)
    (hφ : FKind.Formats .f32) (hacc : (0x7F800000#32 : BitVec 32) = FKind.minimumf.neutral .f32 hφ)
    (j : (⟨1, ![1]⟩ : Shape).Idx) (z : EReal) :
    z ≤ multiReduction .minimumf [0] ⟨1, ![1]⟩ src 0x7F800000#32 h hφ hacc j ↔ ∀ r : Fin R, z ≤ src (ix2 r (0 : Fin 1)) := by
  refine (le_multiReduction_min src _ h hφ hacc j z).trans ?_
  rw [ofBits_inf]
  constructor
  · intro hh r
    have := hh.2 r
    rwa [lift_col h j r] at this
  · intro hh
    exact ⟨le_top, fun k => by rw [lift_col h j k]; exact hh k⟩

/-- The host's minimum of a whole array down to a scalar, from an initial value: below it is below the initial value
    and below every element. -/
theorem le_hostReduce_min {s u : Shape} {axes : List (Fin s.rank)} (x : s.Idx → EReal) (init : u.Idx → EReal)
    (h : s.ReducesTo axes ⟨0, ![]⟩) (hu : 0 < u.numel) (j : (⟨0, ![]⟩ : Shape).Idx) (z : EReal) :
    z ≤ Host.reduce (FloatOps.minimumf (F := Ideal) (φ := .f32)) x init h hu j
      ↔ z ≤ init (Shape.Idx.first hu) ∧ ∀ i : s.Idx, z ≤ x i := by
  classical
  rw [Host.reduce_eq_fold]
  have hall : (Finset.univ.filter fun i : s.Idx => h.drop i = j) = Finset.univ :=
    Finset.filter_true_of_mem fun i _ => funext fun b => b.elim0
  rw [hall]
  refine (Finset.le_fold_min (s := (Finset.univ : Finset s.Idx)) (f := x)
    (b := init (Shape.Idx.first hu)) z).trans ?_
  simp only [Finset.mem_univ, true_implies]

end Cert.LibMinReduce

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibRowOps.lean ====
/-
  Rows of a matrix read at an index, for any number of rows `R` and any width `W`.

  A sum along the rows of an `[R, W]` array — the vector unit's lane reduction with a zero accumulator, or the
  host's reduce from an initial value — is, at row `r`, the sum over `k : Fin W` of the entries `(r, k)`
  (the host's: the initial value plus that sum). A vector `[R]` broadcast to a column `[R, 1]` reads its entry
  `r`, and a column `[R, 1]` broadcast along its unit axis to `[R, W]` reads its entry `(r, 0)`. All are stated at
  indices built from literal coordinates, so they rewrite a payload whatever the width.
-/
import Idealize.ShloMosaic.PureOps.Ideal.Laws
import Idealize.ShloMosaic.Lib.Pipeline.Value
import Idealize.ShloMosaic.Lib.ValueIdx
import Idealize.ShloMosaic.Lib.IdealHost

namespace Cert.RowOps

open Idealize.ShloMosaic Idealize.ShloMosaic.ValueIdx
open scoped BigOperators

variable {R W : ℕ} {α : Type}

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- A lane sum with the zero accumulator, at row `r`: the sum of the row's entries. -/
theorem rowSumK (src : FVec Ideal ⟨2, ![R, W]⟩ .f32) (h : (⟨2, ![R, W]⟩ : Shape).Reduces [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin W, src (ix2 r k) := by
  refine (Ideal.multiReduction_add_single src _ h hφ hacc (ix1 r)).trans ?_
  exact Finset.sum_congr rfl fun k _ => congrArg src (lift_row h r k)

/-- The host's sum along the rows from an initial value, at row `r`: that value plus the sum of the row's entries. -/
theorem rowSumH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduceAdd x init h hu (ix1 r) = init (Shape.Idx.first hu) + ∑ k : Fin W, x (ix2 r k) := by
  have h' : (⟨2, ![R, W]⟩ : Shape).Reduces [1] ⟨1, ![R]⟩ := h.elim fun e hb => ⟨e, Nat.one_pos, hb⟩
  refine (hostReduceAdd_apply x init h hu (ix1 r)).trans ?_
  refine (Ideal.hostReduceAdd_single h h' x _ (ix1 r)).trans ?_
  exact congrArg _ (Finset.sum_congr rfl fun k _ => congrArg x (lift_row h' r k))

/-- A vector `[R]` broadcast to a column `[R, 1]` reads, at `(r, u)`, its entry `r`. -/
theorem bcastCol (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column `[R, 1]` broadcast to `[R, W]` reads, at `(r, k)`, its entry `(r, 0)`. -/
theorem bcastRows (v : (⟨2, ![R, 1]⟩ : Shape).Idx → α)
    (h : (⟨2, ![R, 1]⟩ : Shape).BroadcastsInDim ⟨2, ![R, W]⟩ (![0, 1] : Fin 2 → Fin 2)) (r : Fin R) (k : Fin W) :
    broadcastInDim ⟨2, ![R, W]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

end Cert.RowOps
-- ==== Proof.Tile.lean ====
/-
  One run of the kernel body, read as extended reals. The body holds a block of 1024 stored rows `y`, the 2048 query
  rows `x` (kept in one scratch buffer) and their squared norms (kept in a second, as one row). For a stored row `r`
  and a query `p` it forms  max(|y_r|² + |x_p|² − 2·⟨y_r, x_p⟩, 0),  takes the least of these over the whole block, and
  lowers every entry of the running output block to it. A minimum is described by what lies below it: a value is
  below the new output entry exactly when it is below the old entry and below every one of the 1024 × 2048 squared
  distances.
-/
import proofs.«179320_j50044958933373_2_alg».proof.Proof.Gen.KernelIdeal.Skeleton
import proofs.«179320_j50044958933373_2_alg».proof.Proof.LibMinReduce
import proofs.«179320_j50044958933373_2_alg».proof.Proof.LibColumns
import proofs.«179320_j50044958933373_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Tile

open Cert.KernelIdeal Cert.KernelIdeal.Gen

/-! ### The two matrix products, entry by entry -/

abbrev dotN := dot_S1x512_S2048x512_S1x2048_1_1_0_0_n_n
abbrev dotC := dot_S1024x512_S2048x512_S1024x2048_1_1_0_0_n_n

theorem lhsN_0 (i : S1x2048.Idx) (q : dotN.contr.Idx) : (dotN.lhsIdx i q 0).val = (i 0).val := by
  unfold DotDims.lhsIdx
  rw [dif_neg (show ¬(0 : Fin S1x512.rank) ∈ dotN.lhsBatch by decide), dif_pos (show (0 : Fin S1x512.rank) ∈ dotN.lhsNonContracting by decide)]
  rfl
theorem lhsN_1 (i : S1x2048.Idx) (q : dotN.contr.Idx) : (dotN.lhsIdx i q 1).val = (q ⟨0, by decide⟩).val :=
  dotN.lhsIdx_val_of_single rfl i q
theorem rhsN_0 (i : S1x2048.Idx) (q : dotN.contr.Idx) : (dotN.rhsIdx i q 0).val = (i 1).val := by
  unfold DotDims.rhsIdx
  rw [dif_neg (show ¬(0 : Fin S2048x512.rank) ∈ dotN.rhsBatch by decide), dif_pos (show (0 : Fin S2048x512.rank) ∈ dotN.rhsNonContracting by decide)]
  rfl
theorem rhsN_1 (i : S1x2048.Idx) (q : dotN.contr.Idx) : (dotN.rhsIdx i q 1).val = (q ⟨0, by decide⟩).val :=
  dotN.rhsIdx_val_of_single rfl i q

/-- The norm product: a one-row left operand against the rows of the right operand, contracted over the 512 columns. -/
theorem normDot_apply (prec : Option ContractPrecision) (l : FVec Ideal S1x512 .f32) (r : FVec Ideal S2048x512 .f32) (u : Fin 1) (p : Fin 2048) :
    matmul dotN prec l r (constant S1x2048 .f32 0x00000000#32) (ix2 u p) = ∑ k : Fin 512, l (ix2 u k) * r (ix2 p k) := by
  refine (Ideal.matmul_constant_zero_apply dotN prec l r (ix2 u p)).trans ?_
  rw [← Equiv.sum_comp (ValueIdx.contrEquiv1 dotN 512 rfl rfl).symm]
  refine Finset.sum_congr rfl fun k _ => ?_
  have hk := ValueIdx.contrEquiv1_symm_val dotN 512 rfl rfl k
  have el : dotN.lhsIdx (ix2 u p) ((ValueIdx.contrEquiv1 dotN 512 rfl rfl).symm k) = ix2 u k := funext fun a => Fin.ext (by
    match a with
    | ⟨0, _⟩ => exact lhsN_0 _ _
    | ⟨1, _⟩ => exact (lhsN_1 _ _).trans hk)
  have er : dotN.rhsIdx (ix2 u p) ((ValueIdx.contrEquiv1 dotN 512 rfl rfl).symm k) = ix2 p k := funext fun a => Fin.ext (by
    match a with
    | ⟨0, _⟩ => exact rhsN_0 _ _
    | ⟨1, _⟩ => exact (rhsN_1 _ _).trans hk)
  rw [el, er]

theorem lhsC_0 (i : S1024x2048.Idx) (q : dotC.contr.Idx) : (dotC.lhsIdx i q 0).val = (i 0).val := by
  unfold DotDims.lhsIdx
  rw [dif_neg (show ¬(0 : Fin S1024x512.rank) ∈ dotC.lhsBatch by decide), dif_pos (show (0 : Fin S1024x512.rank) ∈ dotC.lhsNonContracting by decide)]
  rfl
theorem lhsC_1 (i : S1024x2048.Idx) (q : dotC.contr.Idx) : (dotC.lhsIdx i q 1).val = (q ⟨0, by decide⟩).val :=
  dotC.lhsIdx_val_of_single rfl i q
theorem rhsC_0 (i : S1024x2048.Idx) (q : dotC.contr.Idx) : (dotC.rhsIdx i q 0).val = (i 1).val := by
  unfold DotDims.rhsIdx
  rw [dif_neg (show ¬(0 : Fin S2048x512.rank) ∈ dotC.rhsBatch by decide), dif_pos (show (0 : Fin S2048x512.rank) ∈ dotC.rhsNonContracting by decide)]
  rfl
theorem rhsC_1 (i : S1024x2048.Idx) (q : dotC.contr.Idx) : (dotC.rhsIdx i q 1).val = (q ⟨0, by decide⟩).val :=
  dotC.rhsIdx_val_of_single rfl i q

/-- The cross product: stored rows against query rows, contracted over the 512 columns. -/
theorem crossDot_apply (prec : Option ContractPrecision) (l : FVec Ideal S1024x512 .bf16) (r : FVec Ideal S2048x512 .bf16) (a : Fin 1024) (p : Fin 2048) :
    matmul dotC prec l r (constant S1024x2048 .f32 0x00000000#32) (ix2 a p) = ∑ k : Fin 512, l (ix2 a k) * r (ix2 p k) := by
  refine (Ideal.matmul_constant_zero_apply dotC prec l r (ix2 a p)).trans ?_
  rw [← Equiv.sum_comp (ValueIdx.contrEquiv1 dotC 512 rfl rfl).symm]
  refine Finset.sum_congr rfl fun k _ => ?_
  have hk := ValueIdx.contrEquiv1_symm_val dotC 512 rfl rfl k
  have el : dotC.lhsIdx (ix2 a p) ((ValueIdx.contrEquiv1 dotC 512 rfl rfl).symm k) = ix2 a k := funext fun c => Fin.ext (by
    match c with
    | ⟨0, _⟩ => exact lhsC_0 _ _
    | ⟨1, _⟩ => exact (lhsC_1 _ _).trans hk)
  have er : dotC.rhsIdx (ix2 a p) ((ValueIdx.contrEquiv1 dotC 512 rfl rfl).symm k) = ix2 p k := funext fun c => Fin.ext (by
    match c with
    | ⟨0, _⟩ => exact rhsC_0 _ _
    | ⟨1, _⟩ => exact (rhsC_1 _ _).trans hk)
  rw [el, er]

/-! ### The payloads -/

open Cert.LibMinReduce

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The block of +infinity the first tile of a core stores. -/
theorem pay1_apply (i : S8x128.Idx) : k0_pay1 (F := Ideal) i = (⊤ : EReal) := by
  show Ideal.ofBits .f32 0x7F800000#32 = ⊤
  exact ofBits_inf

/-- The query scratch holds the query block itself: a change of float format is the identity. -/
theorem pay3_apply (v32 : Vec Ideal S2048x512 .f32) (j : S2048x512.Idx) : k0_pay3 (F := Ideal) v32 j = v32 j := by
  unfold k0_pay3 k0_pay2
  dsimp only
  rw [shapeCast_self, shapeCast_self]
  rfl

/-- The norm scratch holds, at query `p`, the sum of the squares of that query row: a row of ones times the squares. -/
theorem pay4_apply (v32 : Vec Ideal S2048x512 .f32) (u : Fin 1) (p : Fin 2048) :
    k0_pay4 (F := Ideal) v32 (ix2 u p) = ∑ k : Fin 512, v32 (ix2 p k) * v32 (ix2 p k) := by
  unfold k0_pay4 k0_pay2
  dsimp only
  rw [shapeCast_self, shapeCast_self]
  refine (normDot_apply _ _ _ u p).trans ?_
  refine Finset.sum_congr rfl fun k _ => ?_
  show Ideal.ofBits .f32 0x3F800000#32 * (v32 (ix2 p k) * v32 (ix2 p k)) = _
  rw [ofBits_one, one_mul]

/-- One entry of the block of clamped squared distances, over what the body loaded: the stored block `y`, the query
    scratch `xb` and the norm scratch `xq`. -/
def cell (y : S1024x512.Idx → EReal) (xb : S2048x512.Idx → EReal) (xq : S1x2048.Idx → EReal) (r : Fin 1024) (p : Fin 2048) : EReal :=
  max (((∑ k : Fin 512, y (ix2 r k) * y (ix2 r k)) + xq (ix2 (0 : Fin 1) p))
        - Ideal.ofBits .f32 0x40000000#32 * ∑ k : Fin 512, y (ix2 r k) * xb (ix2 p k)) (Ideal.ofBits .f32 0x00000000#32)

/-- The least entry of a `[1024, 2048]` array, taken along the rows and then down the column of row minima and spread
    over the output block: below it is below every entry. -/
theorem le_blockMin (v19 : FVec Ideal S1024x2048 .f32) (i : S8x128.Idx) (z : EReal) :
    z ≤ broadcastTo S8x128 (shapeCast S1x1 (shapeCast S1x1 (multiReduction .minimumf [0] S1
          (shapeCast S1024x1 (multiReduction .minimumf [1] S1024 v19 0x7F800000#32 reduces_S1024x2048_S1024 (.inl rfl) rfl)
            shapeCasts_S1024_S1024x1) 0x7F800000#32 reduces_S1024x1_S1 (.inl rfl) rfl) shapeCasts_S1_S1x1) shapeCasts_S1x1_S1x1)
          broadcasts_S1x1_S8x128 i
      ↔ ∀ (r : Fin 1024) (p : Fin 2048), z ≤ v19 (ix2 r p) := by
  obtain ⟨a, b, rfl⟩ : ∃ (a : Fin 8) (b : Fin 128), i = ix2 a b := ⟨i 0, i 1, eq_ix2 i⟩
  rw [broadcastTo_11_ab_apply, shapeCast_self, shapeCast_a_1a_apply]
  refine (le_colMin _ _ _ _ _ z).trans ?_
  refine forall_congr' fun r => ?_
  rw [Cert.Columns.shapeCast_a_a1_apply]
  exact le_rowMin v19 _ _ _ r z

/-- What the body stores back: below the new entry is below the old entry and below every clamped squared distance
    of the block. -/
theorem le_pay5 (v3 : Vec Ideal S1024x512 .f32) (v9 : Vec Ideal S2048x512 .bf16) (v11 : Vec Ideal S1x2048 .f32)
    (v24 : Vec Ideal S8x128 .f32) (i : S8x128.Idx) (z : EReal) :
    z ≤ k0_pay5 (F := Ideal) v3 v9 v11 v24 i ↔ z ≤ v24 i ∧ ∀ (r : Fin 1024) (p : Fin 2048), z ≤ cell v3 v9 v11 r p := by
  unfold k0_pay5
  dsimp only
  rw [minimumf_apply, le_min_iff, shapeCast_self]
  refine and_congr Iff.rfl ?_
  refine (le_blockMin _ i z).trans ?_
  refine forall_congr' fun r => forall_congr' fun p => ?_
  rw [maximumf_apply, subf_apply, addf_apply, mulf_apply, broadcast_apply, broadcast_apply,
    Cert.Columns.broadcastTo_a1_ab_apply, Cert.Columns.shapeCast_a_a1_apply, Cert.RowOps.rowSumK,
    broadcastTo_1b_ab_apply, crossDot_apply, shapeCast_self]
  rfl

end Cert.KernelIdeal.Tile

end
-- ==== Proof.Spec.lean ====
/-
  The quantity both programs compute. For query rows `x` (2048 × 512) and stored rows `y` (65536 × 512) the clamped
  squared distance of query `p` to stored row `R` is  max(|x_p|² + |y_R|² − 2·⟨x_p, y_R⟩, 0);  the result is the square
  root of the least such value — equally the least of the square roots, the square root being monotone.
-/
import Idealize.ShloMosaic.PureOps.Ideal
import Idealize.ShloMosaic.Lib.ValueIdx

noncomputable section

open Idealize.ShloMosaic Idealize.ShloMosaic.ValueIdx
open scoped BigOperators

namespace Cert.MinDist

/-- The clamped squared distance between query row `p` and stored row `R`. -/
def dist2 (x : (⟨2, ![2048, 512]⟩ : Shape).Idx → EReal) (y : (⟨2, ![65536, 512]⟩ : Shape).Idx → EReal)
    (p : Fin 2048) (R : Fin 65536) : EReal :=
  max (((∑ k : Fin 512, x (ix2 p k) * x (ix2 p k)) + ∑ k : Fin 512, y (ix2 R k) * y (ix2 R k))
        - Ideal.ofBits .f32 0x40000000#32 * ∑ k : Fin 512, x (ix2 p k) * y (ix2 R k)) 0

theorem dist2_nonneg (x : (⟨2, ![2048, 512]⟩ : Shape).Idx → EReal) (y : (⟨2, ![65536, 512]⟩ : Shape).Idx → EReal)
    (p : Fin 2048) (R : Fin 65536) : 0 ≤ dist2 x y p R := le_max_right _ _

end Cert.MinDist

end
-- ==== Proof.Accumulate.lean ====
/-
  The running state of the kernel across its 64 grid points (two groups of 32 consecutive tiles). After every point
  the query scratch holds the query block and the norm scratch the queries' squared norms, both written at the first
  tile of a group and kept afterwards. The output block restarts from +infinity at the first tile of a group and is
  lowered at every tile to the least clamped squared distance of that tile's 1024 stored rows, so after point `n` a
  value is below an entry of it exactly when it is below the squared distance of every query to every stored row from
  the start of the group up to the end of tile `n`.
-/
import proofs.«179320_j50044958933373_2_alg».proof.Proof.Pieces
import proofs.«179320_j50044958933373_2_alg».proof.Proof.Blocks
import proofs.«179320_j50044958933373_2_alg».proof.Proof.Tile
import proofs.«179320_j50044958933373_2_alg».proof.Proof.Spec

noncomputable section

open Idealize.ShloMosaic Idealize.ShloMosaic.TcCoe Idealize.SL.Sem Idealize.ShloMosaic.ValueIdx
open Idealize.ShloMosaic.Pipeline (Dat)
open scoped BigOperators

namespace Cert.KernelIdeal.Accumulate

open Cert.KernelIdeal Cert.KernelIdeal.Gen Cert.KernelIdeal.Pieces Cert.KernelIdeal.Blocks Cert.KernelIdeal.Tile Cert.MinDist

section Scratch

variable {F : FTy → Type} [FloatOps F]
variable (m : (ℓ : Loc nD τ sig) → Buf (Elt F) ℓ)

/-- After every grid point both scratch buffers hold what the first tile of the group wrote from the query block,
    which is the same whole array at every point. -/
theorem scratch_eq (c : Dev nD) (n : ℕ) (h : n < cfg0.N) :
    (outsAt0 m c n h).2.1 = k0_pay3 (qarr m c) ∧ (outsAt0 m c n h).2.2 = k0_pay4 (qarr m c) := by
  induction n with
  | zero =>
    rw [outsAt0_A m c ⟨0, h⟩ rfl, scratch0_A, scratch1_A, qblock]
    exact ⟨rfl, rfl⟩
  | succ n ih =>
    by_cases h0 : (n + 1) % 32 = 0
    · rw [outsAt0_A m c ⟨n + 1, h⟩ h0, scratch0_A, scratch1_A, qblock]
      exact ⟨rfl, rfl⟩
    · rw [outsAt0_B m c ⟨n + 1, h⟩ h0]
      exact ih (Nat.lt_of_succ_lt h)

end Scratch

variable (m : (ℓ : Loc nD τ sig) → Buf (Elt Ideal) ℓ)

/-- The query array and the stored array as the kernel finds them, as extended reals. -/
abbrev X (c : Dev nD) : S2048x512.Idx → EReal := qarr m c
abbrev Y (c : Dev nD) : S65536x512.Idx → EReal := sarr m c

/-- An entry of a tile's block of clamped squared distances, with the scratch buffers holding what the group's first
    tile left, is the squared distance of the query to the stored row the tile's block row is: the two norms add in
    either order and the inner product is symmetric. -/
theorem cell_eq (c : Dev nD) (t : Fin cfg0.N) (r : Fin 1024) (p : Fin 2048) (R : Fin 65536) (hR : R.val = 1024 * t.val + r.val) :
    cell (iblk m c 1 t) (k0_pay3 (qarr m c)) (k0_pay4 (qarr m c)) r p = dist2 (X m c) (Y m c) p R := by
  unfold cell dist2
  simp only [pay3_apply, pay4_apply, sblock m c t r _ R hR, Ideal.ofBits_zero_f32]
  show max ((∑ k : Fin 512, Y m c (ix2 R k) * Y m c (ix2 R k) + ∑ k : Fin 512, X m c (ix2 p k) * X m c (ix2 p k))
      - Ideal.ofBits .f32 0x40000000#32 * ∑ k : Fin 512, Y m c (ix2 R k) * X m c (ix2 p k)) 0 = _
  rw [add_comm (∑ k : Fin 512, Y m c (ix2 R k) * Y m c (ix2 R k))]
  have e : ∑ k : Fin 512, Y m c (ix2 R k) * X m c (ix2 p k) = ∑ k : Fin 512, X m c (ix2 p k) * Y m c (ix2 R k) :=
    Finset.sum_congr rfl fun k _ => mul_comm _ _
  rw [e]

/-- Below every entry of tile `t`'s block of distances is below the squared distance of every query to each of the
    tile's 1024 stored rows. -/
theorem tile_forall (c : Dev nD) (t : Fin cfg0.N) (z : EReal) :
    (∀ (r : Fin 1024) (p : Fin 2048), z ≤ cell (iblk m c 1 t) (k0_pay3 (qarr m c)) (k0_pay4 (qarr m c)) r p)
      ↔ ∀ R : Fin 65536, 1024 * t.val ≤ R.val → R.val < 1024 * (t.val + 1) → ∀ p : Fin 2048, z ≤ dist2 (X m c) (Y m c) p R := by
  have hN : t.val < 64 := lt_of_lt_of_eq t.isLt (show cfg0.N = 64 from N_0)
  constructor
  · intro h R h1 h2 p
    have := h ⟨R.val - 1024 * t.val, by omega⟩ p
    rwa [cell_eq m c t _ p R (by show R.val = 1024 * t.val + (R.val - 1024 * t.val); omega)] at this
  · intro h r p
    have hr : r.val < 1024 := r.isLt
    rw [cell_eq m c t r p ⟨1024 * t.val + r.val, by omega⟩ rfl]
    exact h _ (by show 1024 * t.val ≤ 1024 * t.val + r.val; omega) (by show 1024 * t.val + r.val < 1024 * (t.val + 1); omega) p

/-- What lies below the output block after grid point `n`. -/
theorem out_le (c : Dev nD) (n : ℕ) (h : n < cfg0.N) (i : S8x128.Idx) (z : EReal) :
    z ≤ (outsAt0 m c n h).1 i
      ↔ ∀ R : Fin 65536, 32768 * (n / 32) ≤ R.val → R.val < 1024 * (n + 1) → ∀ p : Fin 2048, z ≤ dist2 (X m c) (Y m c) p R := by
  induction n generalizing i z with
  | zero =>
    rw [outsAt0_A m c ⟨0, h⟩ rfl, out_A, qblock, le_pay5, pay1_apply, tile_forall m c ⟨0, h⟩ z]
    exact ⟨fun hh => hh.2, fun hh => ⟨le_top, hh⟩⟩
  | succ n ih =>
    have hN : n + 1 < 64 := lt_of_lt_of_eq h (show cfg0.N = 64 from N_0)
    by_cases h0 : (n + 1) % 32 = 0
    · rw [outsAt0_A m c ⟨n + 1, h⟩ h0, out_A, qblock, le_pay5, pay1_apply, tile_forall m c ⟨n + 1, h⟩ z]
      constructor
      · intro hh R h1 h2 p
        exact hh.2 R (by show 1024 * (n + 1) ≤ R.val; omega) h2 p
      · intro hh
        exact ⟨le_top, fun R h1 h2 p => hh R (by have : 1024 * (n + 1) ≤ R.val := h1; omega) h2 p⟩
    · rw [outsAt0_B m c ⟨n + 1, h⟩ h0, out_B]
      show z ≤ k0_pay5 (iblk m c 1 ⟨n + 1, h⟩) (outsAt0 m c n (Nat.lt_of_succ_lt h)).2.1 (outsAt0 m c n (Nat.lt_of_succ_lt h)).2.2
        (outsAt0 m c n (Nat.lt_of_succ_lt h)).1 i ↔ _
      rw [(scratch_eq m c n _).1, (scratch_eq m c n _).2, le_pay5, ih (Nat.lt_of_succ_lt h) i z, tile_forall m c ⟨n + 1, h⟩ z]
      constructor
      · intro hh R h1 h2 p
        by_cases hlt : R.val < 1024 * (n + 1)
        · exact hh.1 R (by omega) hlt p
        · exact hh.2 R (by show 1024 * (n + 1) ≤ R.val; omega) h2 p
      · intro hh
        exact ⟨fun R h1 h2 p => hh R (by omega) (by omega) p,
          fun R h1 h2 p => hh R (by have : 1024 * (n + 1) ≤ R.val := h1; omega) h2 p⟩

end Cert.KernelIdeal.Accumulate

end
-- ==== Proof.Final.lean ====
/-
  From the running output block to the kernel's result. The output array has one block of 8 rows per group of 32
  tiles, written back after the group's last tile; every entry of block `q` is the least clamped squared distance of
  any query to any of the 32768 stored rows of group `q`. The lines after the kernel take the least entry of that
  array from +infinity — the least over both groups, that is over all stored rows —, clamp it at zero and take its
  square root.
-/
import proofs.«179320_j50044958933373_2_alg».proof.Proof.Accumulate
import proofs.«179320_j50044958933373_2_alg».proof.Proof.LibMinReduce
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Blocks Cert.KernelIdeal.Accumulate Cert.MinDist Cert.LibMinReduce

variable (m : (ℓ : Loc nD τ sig) → Buf (Elt Ideal) ℓ) (ρ : Dev nD → PrngReg)

/-- The output array after the run: every entry of the 8 rows of group `q` is the least clamped squared distance of
    any query to any stored row of that group. -/
def G (c : Dev nD) : S16x128.Idx → EReal := fun i =>
  ⨅ (R : Fin 65536) (_ : 32768 * ((i 0).val / 8) ≤ R.val) (_ : R.val < 32768 * ((i 0).val / 8) + 32768) (p : Fin 2048),
    dist2 (X m c) (Y m c) p R

theorem le_G (c : Dev nD) (i : S16x128.Idx) (z : EReal) :
    z ≤ G m c i ↔ ∀ R : Fin 65536, 32768 * ((i 0).val / 8) ≤ R.val → R.val < 32768 * ((i 0).val / 8) + 32768 →
      ∀ p : Fin 2048, z ≤ dist2 (X m c) (Y m c) p R := by
  unfold G
  simp only [le_iInf_iff]

/-- What a group's last tile writes back is that group's block of `G`. -/
theorem flushed_eq (c : Dev nD) (t : Fin cfg0.N) (hf : (cfg0.win 2).flush t = true) :
    (dats m 0 c).flushed 2 t = ((cfg0.win 2).blk t).view.read (Elt Ideal) (G m c) := by
  have hN : t.val < 64 := lt_of_lt_of_eq t.isLt (show cfg0.N = 64 from N_0)
  have h31 : t.val % 32 = 31 := (flush0_2 t).mp hf
  show (cfg0.win 2).cut (grid0.coords t) ((dats m 0 c).after 2 t) = _
  rw [after0_2]
  funext j
  show (outsAt0 m c t.val t.isLt).1 j = G m c (((cfg0.win 2).blk t).view.emb j)
  refine eq_of_forall_le_iff fun z => ?_
  rw [out_le m c t.val t.isLt j z, le_G]
  have he : ((((cfg0.win 2).blk t).view.emb j) 0).val = 8 * (t.val / 32) + (j 0).val := by
    show win0_2.index t 0 * 8 + 1 * (j 0).val = _
    rw [(index_o t).1]; omega
  rw [he]
  have hj : (j 0).val < 8 := (j 0).isLt
  have e1 : (8 * (t.val / 32) + (j 0).val) / 8 = t.val / 32 := by omega
  rw [e1]
  refine forall_congr' fun R => ?_
  constructor <;> intro hh h1 h2 <;> exact hh h1 (by omega)

/-- An index of the output array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- The output array after the run. -/
theorem final (c : Dev nD) : (dats m 0 c).arrAt 2 cfg0.N = G m c :=
  (dats m 0 c).arrAt_eq_of_cover 2 (G m c) (flushed_eq m c) fun i => by
    have hi0 : (i 0).val < 16 := (i 0).isLt
    have hi1 : (i 1).val < 128 := (i 1).isLt
    let t : Fin cfg0.N := ⟨32 * ((i 0).val / 8) + 31, lt_of_lt_of_eq (by omega : 32 * ((i 0).val / 8) + 31 < 64) (show (64 : ℕ) = cfg0.N from N_0.symm)⟩
    have ht : t.val = 32 * ((i 0).val / 8) + 31 := rfl
    refine ⟨t, (flush0_2 t).mpr (by rw [ht]; omega), ?_⟩
    rw [mem_blk]
    intro a
    match a with
    | ⟨0, _⟩ =>
      show win0_2.index t 0 * 8 ≤ (i 0).val ∧ (i 0).val < win0_2.index t 0 * 8 + 8
      rw [(index_o t).1, ht]; omega
    | ⟨1, _⟩ =>
      show win0_2.index t 1 * 128 ≤ (i 1).val ∧ (i 1).val < win0_2.index t 1 * 128 + 128
      rw [(index_o t).2]; omega

/-- The least entry of the output array, from +infinity. -/
def M (c : Dev nD) : S_.Idx → EReal :=
  Host.reduce (FloatOps.minimumf (F := Ideal) (φ := .f32)) (G m c) (constant (F := Ideal) S_ .f32 0x7F800000#32) reducesTo_S16x128_S_d0_1 h_S_

/-- The kernel's result: the least entry clamped at zero, and its square root. -/
def K (c : Dev nD) : S_.Idx → EReal :=
  Host.sqrt (F := Ideal) (maximumf (F := Ideal) (M m c) (constant (F := Ideal) S_ .f32 0x00000000#32))

theorem K_apply (c : Dev nD) (j : S_.Idx) : K m c j = Ideal.sqrt (max (M m c j) 0) := by
  simp only [K, Host.sqrt, maximumf, constant, Ideal.hostUnary_sqrt_def, Ideal.maximumf_def, Ideal.ofBits_def,
    Ideal.ofBits_zero_f32]

/-- The result buffer after the lines that follow the kernel. -/
theorem tail_eq (c : Dev nD) :
    Pipeline.afterTail₀ cfgs (dats m) 0 (V0 m) [hostOps1] c main_v5 = K m c := by
  unfold K M Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v2)
      = G m c := (Pipeline.withArrays_arr spec0 launch0.win.arr_inj c _ _ 2).trans (final m c)
  rw [e]

/-- What lies below the least entry of the output array: it is below the squared distance of every query to every
    stored row, the two groups together holding all of them. -/
theorem least_le (c : Dev nD) (j : S_.Idx) (z : EReal) :
    z ≤ M m c j
      ↔ ∀ pr : Fin 2048 × Fin 65536, z ≤ dist2 (X m c) (Y m c) pr.1 pr.2 := by
  unfold M
  refine (le_hostReduce_min _ _ _ _ j z).trans ?_
  constructor
  · rintro ⟨-, hh⟩ ⟨p, R⟩
    have hR : R.val < 65536 := R.isLt
    have := (le_G m c (ix2 (⟨8 * (R.val / 32768), by omega⟩ : Fin 16) (0 : Fin 128)) z).mp (hh _) R
      (by show 32768 * (8 * (R.val / 32768) / 8) ≤ R.val; omega)
      (by show R.val < 32768 * (8 * (R.val / 32768) / 8) + 32768; omega) p
    exact this
  · intro hh
    refine ⟨?_, fun i => (le_G m c i z).mpr fun R _ _ p => hh (p, R)⟩
    show z ≤ Ideal.ofBits .f32 0x7F800000#32
    rw [ofBits_inf]; exact le_top

/-- The kernel's run, read: the result buffer at `K`, the arguments unchanged. -/
theorem run : θ_run defs (onTc (τ := τ) (main (F := Ideal))) ⟨m, fun _ => 0, ρ⟩ fun r => ∀ c : Dev nD,
      r.2.mem ((c.tc : Thread nD τ).loc main_v5) = K m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefValue.lean ====
/-
  The reference, read at an index. It squares and row-sums both arrays, forms  |x_p|² + |y_R|² − 2·⟨x_p, y_R⟩  for
  every pair, clamps at zero, takes the square root of each, and takes the least of them all starting from +infinity.
  So a value is below the reference's result exactly when it is below the square root of every clamped squared distance.
-/
import proofs.«179320_j50044958933373_2_alg».proof.Proof.Gen.ReferenceIdeal.Read
import proofs.«179320_j50044958933373_2_alg».proof.Proof.LibMinReduce
import proofs.«179320_j50044958933373_2_alg».proof.Proof.Spec

noncomputable section

open Idealize.ShloMosaic Idealize.ShloMosaic.ValueIdx
open scoped BigOperators

namespace Cert.ReferenceIdeal.RefValue

open Cert.ReferenceIdeal Cert.ReferenceIdeal.Gen Cert.ReferenceIdeal.Read Cert.MinDist Cert.LibMinReduce

/-- Entry (p, R) of the array of distances the reference reduces. -/
theorem dist_apply (x0 : (⟨S1x2048x512, .f32⟩ : BufTy).Contents (Elt Ideal)) (x1 : (⟨S1x65536x512, .f32⟩ : BufTy).Contents (Elt Ideal))
    (p : Fin 2048) (R : Fin 65536) :
    val_main_v17 (F := Ideal) x0 x1 (ix2 p R)
      = Ideal.sqrt (dist2 (val_main_v0 (F := Ideal) x0) (val_main_v1 (F := Ideal) x1) p R) := by
  have e3 : ∀ k, idx_main_v3 (idx_main_v4 (idx_main_v8 (ix2 p R))) k = ix2 p k := fun k =>
    funext fun a => Fin.ext (by match a with | ⟨0, _⟩ => rfl | ⟨1, _⟩ => rfl)
  have e6 : ∀ k, idx_main_v6 (idx_main_v7 (idx_main_v9 (ix2 p R))) k = ix2 R k := fun k =>
    funext fun a => Fin.ext (by match a with | ⟨0, _⟩ => rfl | ⟨1, _⟩ => rfl)
  have el : ∀ k, lidx_main_v11 (ix2 p R) k = ix2 p k := fun k =>
    funext fun a => Fin.ext (by match a with | ⟨0, _⟩ => rfl | ⟨1, _⟩ => rfl)
  have er : ∀ k, ridx_main_v11 (ix2 p R) k = ix2 R k := fun k =>
    funext fun a => Fin.ext (by match a with | ⟨0, _⟩ => rfl | ⟨1, _⟩ => rfl)
  rw [val_main_v17_apply, val_main_v16_apply, val_main_v14_apply, val_main_v10_apply, val_main_v13_apply,
    val_main_v8_apply, val_main_v4_apply, val_main_v3_apply, val_main_v9_apply, val_main_v7_apply, val_main_v6_apply,
    val_main_v11_apply, val_main_v12_apply, val_main_v15_apply]
  simp only [val_main_v2_apply, val_main_v5_apply, val_main_cst_apply, val_main_cst_0_apply, val_main_cst_1_apply,
    val_main_cst_2_apply, e3, e6, el, er, Ideal.hostUnary_sqrt_def, Ideal.maximumf_def, Ideal.subf_def, Ideal.addf_def,
    Ideal.mulf_def, Ideal.ofBits_def, Ideal.ofBits_zero_f32, zero_add]
  rfl

/-- What lies below the reference's result. -/
theorem ref_le (x0 : (⟨S1x2048x512, .f32⟩ : BufTy).Contents (Elt Ideal)) (x1 : (⟨S1x65536x512, .f32⟩ : BufTy).Contents (Elt Ideal))
    (j : S_.Idx) (z : EReal) :
    z ≤ val_main_v18 (F := Ideal) x0 x1 j
      ↔ ∀ pr : Fin 2048 × Fin 65536, z ≤ Ideal.sqrt (dist2 (val_main_v0 (F := Ideal) x0) (val_main_v1 (F := Ideal) x1) pr.1 pr.2) := by
  unfold val_main_v18
  refine (le_hostReduce_min _ _ _ _ j z).trans ?_
  constructor
  · rintro ⟨-, hh⟩ ⟨p, R⟩
    rw [← dist_apply]
    exact hh _
  · intro hh
    refine ⟨?_, fun i => ?_⟩
    · rw [val_main_cst_3_apply]
      show z ≤ Ideal.ofBits .f32 0x7F800000#32
      rw [ofBits_inf]; exact le_top
    · obtain ⟨p, R, rfl⟩ : ∃ (p : Fin 2048) (R : Fin 65536), i = ix2 p R := ⟨i 0, i 1, eq_ix2 i⟩
      rw [dist_apply]
      exact hh (p, R)

end Cert.ReferenceIdeal.RefValue

end
-- ==== Proof.lean ====
/-
  The least Euclidean distance from any of 2048 query rows to any of 65536 stored rows, two ways.

  The kernel walks the stored rows in 64 tiles of 1024, two groups of 32. For each tile it forms, for every stored
  row r and query p, the clamped squared distance  max(|y_r|² + |x_p|² − 2·⟨y_r, x_p⟩, 0)  — the queries and their
  squared norms kept in scratch from the group's first tile — and keeps the least value seen in the group; after the
  kernel the least over both groups is clamped at zero and its square root taken. The reference forms
  max(|x_p|² + |y_r|² − 2·⟨x_p, y_r⟩, 0)  for all pairs at once, takes each square root, and then the least.

  On the extended reals the two agree: sums and products commute, a change of float format is the identity, a least
  value over finitely many pairs does not depend on how the pairs are grouped or ordered, and the square root is
  monotone, so the square root of the least squared distance (which is nonnegative, hence unchanged by the clamp) is the
  least of the square roots. The equality needs no finiteness of the inputs.

  The three frames: the two kernel programs' are the generated frame certificates; the reference's is its generated
  run with the result dropped. The idealization rewrote nothing, so there is nothing to preserve.
-/
import proofs.«179320_j50044958933373_2_alg».proof.Defs
import proofs.«179320_j50044958933373_2_alg».proof.Proof.Gen.Kernel
import proofs.«179320_j50044958933373_2_alg».proof.Proof.Gen.Kernel.Skeleton
import proofs.«179320_j50044958933373_2_alg».proof.Proof.Gen.Kernel.Launch
import proofs.«179320_j50044958933373_2_alg».proof.Proof.Gen.Kernel.Points
import proofs.«179320_j50044958933373_2_alg».proof.Proof.Gen.Kernel.Frame
import proofs.«179320_j50044958933373_2_alg».proof.Proof.Gen.KernelIdeal
import proofs.«179320_j50044958933373_2_alg».proof.Proof.Gen.KernelIdeal.Skeleton
import proofs.«179320_j50044958933373_2_alg».proof.Proof.Gen.KernelIdeal.Launch
import proofs.«179320_j50044958933373_2_alg».proof.Proof.Gen.KernelIdeal.Points
import proofs.«179320_j50044958933373_2_alg».proof.Proof.Gen.KernelIdeal.Frame
import proofs.«179320_j50044958933373_2_alg».proof.Proof.Gen.ReferenceIdeal
import proofs.«179320_j50044958933373_2_alg».proof.Proof.Gen.ReferenceIdeal.Run
import proofs.«179320_j50044958933373_2_alg».proof.Proof.Gen.ReferenceIdeal.Read
import proofs.«179320_j50044958933373_2_alg».proof.Proof.Gen.Pre_finite_inputs
import proofs.«179320_j50044958933373_2_alg».proof.Proof.Final
import proofs.«179320_j50044958933373_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result on the kernel's argument arrays is the kernel's result: both are characterised by what lies
    below them — the kernel's least squared distance below every pair's, the reference's result below every pair's
    square root — over the same two arrays (each argument with its leading unit axis dropped). -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v18 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Final.K m c := by
  funext j
  have hx : Cert.KernelIdeal.Accumulate.X m c = Cert.ReferenceIdeal.Read.val_main_v0 (F := Ideal)
      (m ((c.tc : Thread Cert.KernelIdeal.nD Cert.KernelIdeal.τ).loc Cert.KernelIdeal.main_arg0)) :=
    Cert.KernelIdeal.Blocks.V_q m c
  have hy : Cert.KernelIdeal.Accumulate.Y m c = Cert.ReferenceIdeal.Read.val_main_v1 (F := Ideal)
      (m ((c.tc : Thread Cert.KernelIdeal.nD Cert.KernelIdeal.τ).loc Cert.KernelIdeal.main_arg1)) :=
    Cert.KernelIdeal.Blocks.V_s m c
  have hR := Cert.ReferenceIdeal.RefValue.ref_le
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) j
  rw [← hx, ← hy] at hR
  rw [Cert.KernelIdeal.Final.K_apply]
  exact (Cert.LibMinReduce.sqrt_glb
    (fun pr : Fin 2048 × Fin 65536 => Cert.MinDist.dist2 (Cert.KernelIdeal.Accumulate.X m c) (Cert.KernelIdeal.Accumulate.Y m c) pr.1 pr.2)
    (fun pr => Cert.MinDist.dist2_nonneg _ _ _ _) _ _ (Cert.KernelIdeal.Final.least_le m c j) hR).symm

/-- At the ideal instance the kernel's result buffer ends at `K` of its arguments (the kernel's run, read) and the
    reference's at its own composed term of arguments that agree (its generated run): one value. -/
theorem algebraic : Cert.algebraic_KernelIdeal_ReferenceIdeal := by
  intro m ρ m' ρ' _ hagree
  refine ⟨fun c => Cert.KernelIdeal.Final.K m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]
  exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
